-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_v19) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S2048x3072 : Shape := ⟨2, ![2048, 3072]⟩
abbrev S3072 : Shape := ⟨1, ![3072]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S2048x3072 : S_.BroadcastsInDim S2048x3072 (![] : Fin 0 → Fin S2048x3072.rank)
  reducesTo_S2048x3072_S_d0_1 : S2048x3072.ReducesTo [0, 1] S_
  bcast_S_S3072 : S_.BroadcastsInDim S3072 (![] : Fin 0 → Fin S3072.rank)
  reducesTo_S3072_S_d0 : S3072.ReducesTo [0] S_

variable [Facts]

def fn_part1 {F : FTy → Type} [FloatOps F] (main_arg4 : FVec F S3072 .f32) (main_v13 : IVec S_ 1) (main_v16 : IVec S2048x3072 1) : IVec S_ 1 :=
  let main_c_5 : IVec S_ 1 := constantI S_ 1 1#1
  let main_v17 : IVec S_ 1 := (fun x v => Host.reduce IntOp.andi x v reducesTo_S2048x3072_S_d0_1 h_S_) main_v16 main_c_5
  let main_v18 : IVec S_ 1 := andi main_v13 main_v17
  let main_v19 : FVec F S3072 .f32 := Host.absf main_arg4
  let main_cst_6 : FVec F S_ .f32 := constant S_ .f32 0x7F800000#32
  let main_v20 : FVec F S3072 .f32 := broadcastInDim S3072 ![] bcast_S_S3072 main_cst_6
  let main_v21 : IVec S3072 1 := cmpf .olt main_v19 main_v20
  let main_c_7 : IVec S_ 1 := constantI S_ 1 1#1
  let main_v22 : IVec S_ 1 := (fun x v => Host.reduce IntOp.andi x v reducesTo_S3072_S_d0 h_S_) main_v21 main_c_7
  let main_v23 : IVec S_ 1 := andi main_v18 main_v22
  main_v23

def fn {F : FTy → Type} [FloatOps F] (main_arg0 : FVec F S16384x1024 .f32) (main_arg1 : FVec F S16384x1024 .f32) (main_arg2 : FVec F S16384x1024 .f32) (main_arg3 : FVec F S2048x3072 .f32) (main_arg4 : FVec F S3072 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S16384x1024 .f32 := Host.absf main_arg1
  let main_cst_0 : FVec F S_ .f32 := constant S_ .f32 0x7F800000#32
  let main_v5 : FVec F S16384x1024 .f32 := broadcastInDim S16384x1024 ![] bcast_S_S16384x1024 main_cst_0
  let main_v6 : IVec S16384x1024 1 := cmpf .olt main_v4 main_v5
  let main_c_1 : IVec S_ 1 := constantI S_ 1 1#1
  let main_v7 : IVec S_ 1 := (fun x v => Host.reduce IntOp.andi x v reducesTo_S16384x1024_S_d0_1 h_S_) main_v6 main_c_1
  let main_v8 : IVec S_ 1 := andi main_v3 main_v7
  let main_v9 : FVec F S16384x1024 .f32 := Host.absf main_arg2
  let main_cst_2 : FVec F S_ .f32 := constant S_ .f32 0x7F800000#32
  let main_v10 : FVec F S16384x1024 .f32 := broadcastInDim S16384x1024 ![] bcast_S_S16384x1024 main_cst_2
  let main_v11 : IVec S16384x1024 1 := cmpf .olt main_v9 main_v10
  let main_c_3 : IVec S_ 1 := constantI S_ 1 1#1
  let main_v12 : IVec S_ 1 := (fun x v => Host.reduce IntOp.andi x v reducesTo_S16384x1024_S_d0_1 h_S_) main_v11 main_c_3
  let main_v13 : IVec S_ 1 := andi main_v8 main_v12
  let main_v14 : FVec F S2048x3072 .f32 := Host.absf main_arg3
  let main_cst_4 : FVec F S_ .f32 := constant S_ .f32 0x7F800000#32
  let main_v15 : FVec F S2048x3072 .f32 := broadcastInDim S2048x3072 ![] bcast_S_S2048x3072 main_cst_4
  let main_v16 : IVec S2048x3072 1 := cmpf .olt main_v14 main_v15
  fn_part1 (F := F) main_arg4 main_v13 main_v16
-- ==== Kernel.lean ====
abbrev S16384x1024 : Shape := ⟨2, ![16384, 1024]⟩
abbrev S2048x3072 : Shape := ⟨2, ![2048, 3072]⟩
abbrev S3072 : Shape := ⟨1, ![3072]⟩
abbrev S1x3072 : Shape := ⟨2, ![1, 3072]⟩
abbrev S256x1024 : Shape := ⟨2, ![256, 1024]⟩
abbrev S1024x3072 : Shape := ⟨2, ![1024, 3072]⟩
abbrev S256x3072 : Shape := ⟨2, ![256, 3072]⟩

abbrev nBuf : Space → Nat
  | .hbm => 9
  | .vmem => 12
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S2048x3072, .f32⟩
  | .hbm, ⟨4, _⟩ => ⟨S3072, .f32⟩
  | .hbm, ⟨5, _⟩ => ⟨S2048x3072, .bf16⟩
  | .hbm, ⟨6, _⟩ => ⟨S1x3072, .f32⟩
  | .hbm, ⟨7, _⟩ => ⟨S16384x1024, .f32⟩
  | .hbm, ⟨8, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S2048x3072, .bf16⟩
  | .local _ .vmem, ⟨7, _⟩ => ⟨S1x3072, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bitsLt_bf16_f32 : FTy.bits .bf16 < FTy.bits .f32
  shapeCasts_S3072_S1x3072 : S3072.ShapeCasts S1x3072
  inb_S256x1024_S256x1024_0_0 : ∀ a, (![0, 0] : Fin 2 → Nat) a + S256x1024.size a ≤ S256x1024.size a
  h_S256x1024 : 0 < S256x1024.numel
  inb_S2048x3072_S1024x3072_0_0 : ∀ a, (![0, 0] : Fin 2 → Nat) a + S1024x3072.size a ≤ S2048x3072.size a
  h_S1024x3072 : 0 < S1024x3072.numel
  shapeCasts_S1024x3072_S1024x3072 : S1024x3072.ShapeCasts S1024x3072
  inb_S2048x3072_S1024x3072_1024_0 : ∀ a, (![1024, 0] : Fin 2 → Nat) a + S1024x3072.size a ≤ S2048x3072.size a
  inb_S1x3072_S1x3072_0_0 : ∀ a, (![0, 0] : Fin 2 → Nat) a + S1x3072.size a ≤ S1x3072.size a
  h_S1x3072 : 0 < S1x3072.numel
  shapeCasts_S1x3072_S1x3072 : S1x3072.ShapeCasts S1x3072
  broadcasts_S1x3072_S256x3072 : S1x3072.Broadcasts S256x3072
  slices_S256x3072_o0_0_S256x1024 : S256x3072.Slices ![0, 0] S256x1024
  slices_S256x3072_o0_1024_S256x1024 : S256x3072.Slices ![0, 1024] S256x1024
  slices_S256x3072_o0_2048_S256x1024 : S256x3072.Slices ![0, 2048] S256x1024
  dot_S256x1024_S1024x3072_S256x3072_1_0_0_1_n_n_wf : DotDims.WF S256x1024 S1024x3072 S256x3072 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S16384x1024.size a
  hwx0_0 : ∀ i : grid0.Coords, EltTy.bits .f32 = 32 ∨ (Rect.block (s := S16384x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S16384x1024.size a
  hwx0_1 : ∀ i : grid0.Coords, EltTy.bits .f32 = 32 ∨ (Rect.block (s := S16384x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S16384x1024.size a
  hwx0_2 : ∀ i : grid0.Coords, EltTy.bits .f32 = 32 ∨ (Rect.block (s := S16384x1024) S256x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x3072.size a ≤ S2048x3072.size a
  hwx0_3 : ∀ i : grid0.Coords, EltTy.bits .bf16 = 32 ∨ (Rect.block (s := S2048x3072) S2048x3072.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x3072.size a ≤ S1x3072.size a
  hwx0_4 : ∀ i : grid0.Coords, EltTy.bits .f32 = 32 ∨ (Rect.block (s := S1x3072) S1x3072.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x1024.size a ≤ S16384x1024.size a
  hwx0_5 : ∀ i : grid0.Coords, EltTy.bits .f32 = 32 ∨ (Rect.block (s := S16384x1024) S256x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x1024.size a ≤ S16384x1024.size a
  hwx0_6 : ∀ i : grid0.Coords, EltTy.bits .f32 = 32 ∨ (Rect.block (s := S16384x1024) S256x1024.size (cc0_transform_6 i) (hinb0_6 i)).WholeWords (EltTy.packing .f32)

variable [Facts₀]

def dot_S256x1024_S1024x3072_S256x3072_1_0_0_1_n_n : DotDims S256x1024 S1024x3072 S256x3072 where
  lhsContracting := [1]
  rhsContracting := [0]
  lhsNonContracting := [0]
  rhsNonContracting := [1]
  lhsBatch := []
  rhsBatch := []
  wf := dot_S256x1024_S1024x3072_S256x3072_1_0_0_1_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v0) S2048x3072.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v1) S1x3072.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0_0) S256x1024.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0_1) S256x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S16384x1024 : Shape := ⟨2, ![16384, 1024]⟩
abbrev S2048x3072 : Shape := ⟨2, ![2048, 3072]⟩
abbrev S3072 : Shape := ⟨1, ![3072]⟩
abbrev S16384x2048 : Shape := ⟨2, ![16384, 2048]⟩
abbrev S16384x3072 : Shape := ⟨2, ![16384, 3072]⟩
abbrev S1x3072 : Shape := ⟨2, ![1, 3072]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S2048x3072, .f32⟩
  | .hbm, ⟨4, _⟩ => ⟨S3072, .f32⟩
  | .hbm, ⟨5, _⟩ => ⟨S16384x2048, .f32⟩
  | .hbm, ⟨6, _⟩ => ⟨S16384x3072, .f32⟩
  | .hbm, ⟨7, _⟩ => ⟨S1x3072, .f32⟩
  | .hbm, ⟨8, _⟩ => ⟨S16384x3072, .f32⟩
  | .hbm, ⟨9, _⟩ => ⟨S16384x3072, .f32⟩
  | .hbm, ⟨10, _⟩ => ⟨S16384x1024, .f32⟩
  | .hbm, ⟨11, _⟩ => ⟨S16384x1024, .f32⟩
  | .hbm, ⟨12, _⟩ => ⟨S16384x1024, .f32⟩
  | .hbm, ⟨13, _⟩ => ⟨S16384x1024, .f32⟩
  | .hbm, ⟨14, _⟩ => ⟨S16384x1024, .f32⟩
  | .hbm, ⟨15, _⟩ => ⟨S_, .f32⟩
  | .hbm, ⟨16, _⟩ => ⟨S16384x1024, .f32⟩
  | .hbm, ⟨17, _⟩ => ⟨S16384x1024, .f32⟩
  | .hbm, ⟨18, _⟩ => ⟨S_, .f32⟩
  | .hbm, ⟨19, _⟩ => ⟨S16384x1024, .f32⟩
  | .hbm, ⟨20, _⟩ => ⟨S16384x1024, .f32⟩
  | .hbm, ⟨21, _⟩ => ⟨S_, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S16384x1024, .f32⟩
  | .hbm, ⟨27, _⟩ => ⟨S16384x1024, .f32⟩
  | .hbm, ⟨28, _⟩ => ⟨S16384x1024, .f32⟩
  | .hbm, ⟨29, _⟩ => ⟨S16384x1024, .f32⟩
  | .hbm, ⟨30, _⟩ => ⟨S16384x1024, .f32⟩
  | .hbm, ⟨31, _⟩ => ⟨S_, .f32⟩
  | .hbm, ⟨32, _⟩ => ⟨S16384x1024, .f32⟩
  | .hbm, ⟨33, _⟩ => ⟨S16384x1024, .f32⟩
  | .hbm, ⟨34, _⟩ => ⟨S_, .f32⟩
  | .hbm, ⟨35, _⟩ => ⟨S16384x1024, .f32⟩
  | .hbm, ⟨36, _⟩ => ⟨S16384x1024, .f32⟩
  | .hbm, ⟨37, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_2 : Ref sig .tc := ⟨.hbm, 31, rfl⟩
abbrev main_v23 : Ref sig .tc := ⟨.hbm, 32, rfl⟩
abbrev main_v24 : Ref sig .tc := ⟨.hbm, 33, rfl⟩
abbrev main_cst_3 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩

abbrev nD : Nat := 1
abbrev τ : Topo := Topo.v7x

variable {F : FTy → Type} [FloatOps F]

class Facts₀ : Prop where
  concatenates_S16384x1024_S16384x1024_S16384x2048_d1 : Shape.Concatenates [S16384x1024, S16384x1024] S16384x2048 1
  bcast_S3072_S1x3072_1 : S3072.BroadcastsInDim S1x3072 (![1] : Fin 1 → Fin S1x3072.rank)
  bcast_S1x3072_S16384x3072_0_1 : S1x3072.BroadcastsInDim S16384x3072 (![0, 1] : Fin 2 → Fin S16384x3072.rank)
  slices_S16384x3072_S16384x1024_0_0 : S16384x3072.Slices ![0, 0] S16384x1024
  slices_S16384x3072_S16384x1024_0_1024 : S16384x3072.Slices ![0, 1024] S16384x1024
  slices_S16384x3072_S16384x1024_0_2048 : S16384x3072.Slices ![0, 2048] S16384x1024
  bcast_S_S16384x1024 : S_.BroadcastsInDim S16384x1024 (![] : Fin 0 → Fin S16384x1024.rank)
  dot_S16384x2048_S2048x3072_S16384x3072_1_0_0_1_n_n_wf : DotDims.WF S16384x2048 S2048x3072 S16384x3072 [1] [0] [0] [1] [] []

variable [Facts₀]

def dot_S16384x2048_S2048x3072_S16384x3072_1_0_0_1_n_n : DotDims S16384x2048 S2048x3072 S16384x3072 where
  lhsContracting := [1]
  rhsContracting := [0]
  lhsNonContracting := [0]
  rhsNonContracting := [1]
  lhsBatch := []
  rhsBatch := []
  wf := dot_S16384x2048_S2048x3072_S16384x3072_1_0_0_1_n_n_wf

class Facts : Prop extends Facts₀ where

variable [Facts]
-- ==== Proof.Cell.lean ====
/-
  The mathematics of one LSTM cell step on the extended reals, with no program in sight.

  For a batch row `r` and a hidden unit `j` the three gate pre-activations are entries `j`, `j + 1024` and
  `j + 2048` of the row vector  [x_r , h_r] · W + b , where [x_r , h_r] is the row of `x` followed by the row of
  `h` (2048 entries).  Writing σ for the logistic function,
      c' = (1 − σ(g_i)) · c + σ(g_i) · tanh(g_j),        h' = tanh(c') · σ(g_o).
  Two facts join the two ways this is computed:
    • a sum over the 2048 joined entries is the sum over the first 1024 plus the sum over the last 1024
      (`sum_two_halves`; addition on the extended reals is commutative and associative, so no finiteness is used);
    • the quotient  1 / (1 + exp(−x))  IS the logistic function, on every extended real (`host_sigmoid`), once the
      float word of 1.0 is read as the number one (`word_one`).
-/
import Idealize.ShloMosaic.PureOps.Ideal
import Idealize.ShloMosaic.PureOps.Ideal.Laws
import Idealize.ShloMosaic.Lib.ValueIdx

noncomputable section

namespace Cert.Lstm

open Idealize.ShloMosaic Idealize.ShloMosaic.ValueIdx

/-- The float word `0x3F800000` (1.0 in binary32) denotes the number one. -/
theorem word_one : Ideal.ofBits .f32 0x3F800000#32 = 1 := by
  simp [Ideal.ofBits, Ideal.ieee, -EReal.coe_mul]; norm_num

/-- The new cell state from the input gate's pre-activation `gi`, the candidate's `gj` and the old state `cc`:
    (1 − σ(gi)) · cc + σ(gi) · tanh(gj). -/
def cellC (gi gj cc : Ideal .f32) : Ideal .f32 :=
  FloatOps.addf (FloatOps.mulf (FloatOps.subf (Scalar.ofBits .f32 0x3F800000#32) (FloatOps.logistic gi)) cc)
    (FloatOps.mulf (FloatOps.logistic gi) (FloatOps.tanh gj))

/-- The new hidden state: tanh of the new cell state times σ of the output gate's pre-activation `go`. -/
def cellH (gi gj go cc : Ideal .f32) : Ideal .f32 :=
  FloatOps.mulf (FloatOps.tanh (cellC gi gj cc)) (FloatOps.logistic go)

/-- The logistic function spelt as a quotient, 1 / (1 + exp(−x)) with both ones the float word of 1.0, is the
    logistic function: on every extended real, the infinities included. -/
theorem host_sigmoid (x : Ideal .f32) :
    FloatOps.hostDivf (FloatOps.ofBits (F := Ideal) .f32 0x3F800000#32)
      (FloatOps.addf (FloatOps.ofBits (F := Ideal) .f32 0x3F800000#32) (FloatOps.hostUnary .exp (FloatOps.hostNegf x)))
      = FloatOps.logistic x := by
  show FloatOps.hostDivf (F := Ideal) (φ := .f32) (Ideal.ofBits .f32 0x3F800000#32)
      (FloatOps.addf (Ideal.ofBits .f32 0x3F800000#32) (FloatOps.hostUnary .exp (FloatOps.hostNegf x))) = _
  rw [word_one]; rfl

/-- A sum over the 2048 joined entries is the sum over the first 1024 plus the sum over the last 1024. -/
theorem sum_two_halves (f : Fin 2048 → EReal) :
    ∑ k : Fin 2048, f k
      = (∑ k : Fin 1024, f ⟨k.val, by omega⟩) + ∑ k : Fin 1024, f ⟨1024 + k.val, by omega⟩ := by
  have h := Fin.sum_univ_add (fun i : Fin (1024 + 1024) => f ⟨i.val, i.isLt⟩)
  simp only [Fin.coe_castAdd, Fin.coe_natAdd] at h
  exact h

/-- One gate pre-activation: a row of `x` against the first 1024 entries of a column of `W`, plus a row of `h`
    against the last 1024, plus the bias entry. -/
def gate (xr hr : Fin 1024 → EReal) (wc : Fin 2048 → EReal) (bq : EReal) : EReal :=
  ((∑ k : Fin 1024, xr k * wc ⟨k.val, by omega⟩) + ∑ k : Fin 1024, hr k * wc ⟨1024 + k.val, by omega⟩) + bq

/-- The literal shapes of the arrays. -/
abbrev BH : Shape := ⟨2, ![16384, 1024]⟩
abbrev WW : Shape := ⟨2, ![2048, 3072]⟩
abbrev B3 : Shape := ⟨1, ![3072]⟩

/-- Pre-activation `q` (of 3072) of batch row `r`, from the whole arrays. -/
def preact (x h : BH.Idx → EReal) (W : WW.Idx → EReal) (b : B3.Idx → EReal) (r : Fin 16384) (q : Fin 3072) : EReal :=
  gate (fun k => x (ix2 r k)) (fun k => h (ix2 r k)) (fun k => W (ix2 k q)) (b (ix1 q))

/-- The new cell state, as one function of the argument arrays, index by index. -/
def newC (x h c : BH.Idx → EReal) (W : WW.Idx → EReal) (b : B3.Idx → EReal) : BH.Idx → EReal := fun i =>
  cellC (preact x h W b (i 0) ⟨(i 1).val, by have h1 : (i 1).val < 1024 := (i 1).isLt; omega⟩)
    (preact x h W b (i 0) ⟨(i 1).val + 1024, by have h1 : (i 1).val < 1024 := (i 1).isLt; omega⟩) (c i)

/-- The new hidden state, as one function of the argument arrays, index by index. -/
def newH (x h c : BH.Idx → EReal) (W : WW.Idx → EReal) (b : B3.Idx → EReal) : BH.Idx → EReal := fun i =>
  cellH (preact x h W b (i 0) ⟨(i 1).val, by have h1 : (i 1).val < 1024 := (i 1).isLt; omega⟩)
    (preact x h W b (i 0) ⟨(i 1).val + 1024, by have h1 : (i 1).val < 1024 := (i 1).isLt; omega⟩)
    (preact x h W b (i 0) ⟨(i 1).val + 2048, by have h1 : (i 1).val < 1024 := (i 1).isLt; omega⟩) (c i)

end Cert.Lstm

end
-- ==== Proof.RefCell.lean ====
/-
  The reference computes the cell step of `Cell.lean`.

  The reference joins each row of `x` with the same row of `h` (2048 entries), multiplies the joined matrix by `W`
  and adds the bias broadcast down the rows.  Entry `k` of a joined row is `x`'s for k < 1024 and `h`'s entry
  `k − 1024` otherwise (`joined_left`, `joined_right`), so each product's sum over the 2048 joined entries splits into
  `x`'s part against the top half of `W` plus `h`'s part against the bottom half: that is `preact` (`gates_apply`).
  The three slices of width 1024 pick the input, candidate and output gates; the reference spells the logistic
  function as 1 / (1 + exp(−·)), which is the logistic function (`host_sigmoid`).
-/
import proofs.«117251_j24309514895774_2_alg».proof.Proof.Gen.ReferenceIdeal.Read
import proofs.«117251_j24309514895774_2_alg».proof.Proof.Cell
import Idealize.ShloMosaic.Lib.Pipeline.Value
import Idealize.ShloMosaic.Lib.ValueIdx

noncomputable section

namespace Cert.ReferenceIdeal.RefValue

open Cert.ReferenceIdeal Cert.ReferenceIdeal.Gen Cert.ReferenceIdeal.Read Cert.Lstm
open Idealize.ShloMosaic Idealize.ShloMosaic.TcCoe Idealize.ShloMosaic.ValueIdx

variable (x0 x1 x2 : (⟨S16384x1024, .f32⟩ : BufTy).Contents (Elt Ideal))
  (x3 : (⟨S2048x3072, .f32⟩ : BufTy).Contents (Elt Ideal)) (x4 : (⟨S3072, .f32⟩ : BufTy).Contents (Elt Ideal))

/-- Among the first 1024 entries a joined row is the row of `x`. -/
theorem joined_left (i : S16384x3072.Idx) (k : Fin 1024) :
    val_main_v0 (F := Ideal) x0 x1 (lidx_main_v1 i ⟨k.val, by omega⟩) = x0 (ix2 (i 0) k) := by
  unfold val_main_v0
  exact concatenate_pair_apply_left _ x0 x1 concatenates_S16384x1024_S16384x1024_S16384x2048_d1 _ rfl (ix2 (i 0) k)
    (fun b => match b with | ⟨0, _⟩ => rfl | ⟨1, _⟩ => rfl)

/-- Among the last 1024 entries a joined row is the row of `h`, 1024 places back. -/
theorem joined_right (i : S16384x3072.Idx) (k : Fin 1024) :
    val_main_v0 (F := Ideal) x0 x1 (lidx_main_v1 i ⟨1024 + k.val, by omega⟩) = x1 (ix2 (i 0) k) := by
  unfold val_main_v0
  exact concatenate_pair_apply_right _ x0 x1 concatenates_S16384x1024_S16384x1024_S16384x2048_d1 _ rfl rfl (ix2 (i 0) k)
    (fun b hb => match b, hb with | ⟨0, _⟩, _ => rfl | ⟨1, _⟩, hb => absurd rfl hb)
    (by show k.val + 1024 = 1024 + k.val; omega)

/-- The reference's gate pre-activations are `preact` of the argument arrays. -/
theorem gates_apply (i : S16384x3072.Idx) :
    val_main_v4 (F := Ideal) x0 x1 x3 x4 i = preact x0 x1 x3 x4 (i 0) (i 1) := by
  have er : ∀ k : Fin 2048, ridx_main_v1 i k = ix2 k (i 1) := fun k =>
    funext fun a => Fin.ext (by match a with | ⟨0, _⟩ => rfl | ⟨1, _⟩ => rfl)
  have eb : idx_main_v2 (idx_main_v3 i) = ix1 (i 1) :=
    funext fun a => Fin.ext (by match a with | ⟨0, _⟩ => rfl)
  rw [val_main_v4_apply, val_main_v1_apply, val_main_v3_apply, val_main_v2_apply, sum_two_halves]
  simp only [joined_left, joined_right, er, eb]
  rfl

/-- The reference's new cell state is `newC` of the argument arrays. -/
theorem newC_eq : val_main_v19 (F := Ideal) x0 x1 x2 x3 x4 = newC x0 x1 x2 x3 x4 := by
  funext i
  have e6 : idx_main_v6 i 1 = ⟨(i 1).val + 1024, by have h1 : (i 1).val < 1024 := (i 1).isLt; show (i 1).val + 1024 < 3072; omega⟩ :=
    Fin.ext (Nat.add_comm _ _)
  simp only [val_main_v19_apply, val_main_v16_apply, val_main_v18_apply, val_main_v15_apply, val_main_v17_apply,
    val_main_v13_apply, val_main_v14_apply, val_main_v12_apply, val_main_v11_apply, val_main_v10_apply,
    val_main_v9_apply, val_main_v8_apply, val_main_cst_apply, val_main_cst_0_apply, val_main_cst_1_apply,
    val_main_v5_apply, val_main_v6_apply, gates_apply, host_sigmoid, e6]
  rfl

/-- The reference's new hidden state is `newH` of the argument arrays. -/
theorem newH_eq : val_main_v27 (F := Ideal) x0 x1 x2 x3 x4 = newH x0 x1 x2 x3 x4 := by
  funext i
  have e6 : idx_main_v6 i 1 = ⟨(i 1).val + 1024, by have h1 : (i 1).val < 1024 := (i 1).isLt; show (i 1).val + 1024 < 3072; omega⟩ :=
    Fin.ext (Nat.add_comm _ _)
  have e7 : idx_main_v7 i 1 = ⟨(i 1).val + 2048, by have h1 : (i 1).val < 1024 := (i 1).isLt; show (i 1).val + 2048 < 3072; omega⟩ :=
    Fin.ext (Nat.add_comm _ _)
  simp only [val_main_v27_apply, val_main_v20_apply, val_main_v26_apply, val_main_v25_apply, val_main_v24_apply,
    val_main_v23_apply, val_main_v22_apply, val_main_v21_apply, val_main_v7_apply,
    val_main_v19_apply, val_main_v16_apply, val_main_v18_apply, val_main_v15_apply, val_main_v17_apply,
    val_main_v13_apply, val_main_v14_apply, val_main_v12_apply, val_main_v11_apply, val_main_v10_apply,
    val_main_v9_apply, val_main_v8_apply, val_main_cst_apply, val_main_cst_0_apply, val_main_cst_1_apply,
    val_main_cst_2_apply, val_main_cst_3_apply,
    val_main_v5_apply, val_main_v6_apply, gates_apply, host_sigmoid, e6, e7]
  rfl

end Cert.ReferenceIdeal.RefValue

end
-- ==== Proof.Gates.lean ====
/-
  The kernel's gate pre-activations, read at an index.

  At a grid point the body holds a block of 256 rows of `x` and of `h`, the top and bottom halves (1024 rows each) of
  the resident weight matrix, and the bias row.  Its 256 × 3072 gate tile is
        (x-block · W-top  +  h-block · W-bottom)  +  bias row broadcast down the rows,
  each product accumulated from zero.  On the extended reals a change of float format is the identity and a matrix
  product into a zero accumulator is the plain sum over the contracted axis, so entry (p, q) of the tile is
        (Σ_k x(p,k) · Wtop(k,q)  +  Σ_k h(p,k) · Wbot(k,q))  +  bias(0,q)            (`tile_apply`).
-/
import proofs.«117251_j24309514895774_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Gates

open Cert.KernelIdeal Cert.KernelIdeal.Gen
open Idealize.ShloMosaic Idealize.ShloMosaic.TcCoe Idealize.ShloMosaic.ValueIdx

/-! The product's index maps: the left operand is read at (row of the result, contracted position), the right
    operand at (contracted position, column of the result). -/

theorem lhs_row (j : S256x3072.Idx) (c : dot_S256x1024_S1024x3072_S256x3072_1_0_0_1_n_n.contr.Idx) : (dot_S256x1024_S1024x3072_S256x3072_1_0_0_1_n_n.lhsIdx j c 0).val = (j 0).val := by
  unfold DotDims.lhsIdx
  rw [dif_neg (show ¬(0 : Fin S256x1024.rank) ∈ dot_S256x1024_S1024x3072_S256x3072_1_0_0_1_n_n.lhsBatch by decide),
    dif_pos (show (0 : Fin S256x1024.rank) ∈ dot_S256x1024_S1024x3072_S256x3072_1_0_0_1_n_n.lhsNonContracting by decide)]
  rfl

theorem lhs_col (j : S256x3072.Idx) (c : dot_S256x1024_S1024x3072_S256x3072_1_0_0_1_n_n.contr.Idx) : (dot_S256x1024_S1024x3072_S256x3072_1_0_0_1_n_n.lhsIdx j c 1).val = (c ⟨0, by decide⟩).val :=
  dot_S256x1024_S1024x3072_S256x3072_1_0_0_1_n_n.lhsIdx_val_of_single rfl j c

theorem rhs_row (j : S256x3072.Idx) (c : dot_S256x1024_S1024x3072_S256x3072_1_0_0_1_n_n.contr.Idx) : (dot_S256x1024_S1024x3072_S256x3072_1_0_0_1_n_n.rhsIdx j c 0).val = (c ⟨0, by decide⟩).val :=
  dot_S256x1024_S1024x3072_S256x3072_1_0_0_1_n_n.rhsIdx_val_of_single rfl j c

theorem rhs_col (j : S256x3072.Idx) (c : dot_S256x1024_S1024x3072_S256x3072_1_0_0_1_n_n.contr.Idx) : (dot_S256x1024_S1024x3072_S256x3072_1_0_0_1_n_n.rhsIdx j c 1).val = (j 1).val := by
  unfold DotDims.rhsIdx
  rw [dif_neg (show ¬(1 : Fin S1024x3072.rank) ∈ dot_S256x1024_S1024x3072_S256x3072_1_0_0_1_n_n.rhsBatch by decide),
    dif_pos (show (1 : Fin S1024x3072.rank) ∈ dot_S256x1024_S1024x3072_S256x3072_1_0_0_1_n_n.rhsNonContracting by decide)]
  rfl

/-- One of the two products: a 256 × 1024 block, narrowed to the matrix unit's format, against a 1024 × 3072 half of
    the weights, accumulated from zero, is at (p, q) the sum over the 1024 contracted positions. -/
theorem half_product (A : FVec Ideal S256x1024 .f32) (B : FVec Ideal S1024x3072 .bf16) (p : Fin 256) (q : Fin 3072) :
    matmul dot_S256x1024_S1024x3072_S256x3072_1_0_0_1_n_n none (truncf .bf16 A bitsLt_bf16_f32) (shapeCast S1024x3072 B shapeCasts_S1024x3072_S1024x3072)
        (constant S256x3072 .f32 0x00000000#32) (ix2 p q)
      = ∑ k : Fin 1024, A (ix2 p k) * B (ix2 k q) := by
  rw [shapeCast_self]
  refine (Ideal.matmul_constant_zero_apply dot_S256x1024_S1024x3072_S256x3072_1_0_0_1_n_n none _ _ (ix2 p q)).trans ?_
  rw [← Equiv.sum_comp (ValueIdx.contrEquiv1 dot_S256x1024_S1024x3072_S256x3072_1_0_0_1_n_n 1024 rfl rfl).symm]
  refine Finset.sum_congr rfl fun k _ => ?_
  have hk := ValueIdx.contrEquiv1_symm_val dot_S256x1024_S1024x3072_S256x3072_1_0_0_1_n_n 1024 rfl rfl k
  have el : dot_S256x1024_S1024x3072_S256x3072_1_0_0_1_n_n.lhsIdx (ix2 p q) ((ValueIdx.contrEquiv1 dot_S256x1024_S1024x3072_S256x3072_1_0_0_1_n_n 1024 rfl rfl).symm k) = ix2 p k :=
    funext fun a => Fin.ext (by
      match a with
      | ⟨0, _⟩ => exact lhs_row _ _
      | ⟨1, _⟩ => exact (lhs_col _ _).trans hk)
  have er : dot_S256x1024_S1024x3072_S256x3072_1_0_0_1_n_n.rhsIdx (ix2 p q) ((ValueIdx.contrEquiv1 dot_S256x1024_S1024x3072_S256x3072_1_0_0_1_n_n 1024 rfl rfl).symm k) = ix2 k q :=
    funext fun a => Fin.ext (by
      match a with
      | ⟨0, _⟩ => exact (rhs_row _ _).trans hk
      | ⟨1, _⟩ => exact rhs_col _ _)
  rw [el, er]
  rfl

/-- The bias row, broadcast down the 256 rows of the tile, is at (p, q) its entry q. -/
theorem bias_apply (P4 : FVec Ideal S1x3072 .f32) (p : Fin 256) (q : Fin 3072) :
    broadcastTo S256x3072 (shapeCast S1x3072 P4 shapeCasts_S1x3072_S1x3072) broadcasts_S1x3072_S256x3072 (ix2 p q)
      = P4 (ix2 (0 : Fin 1) q) := by
  rw [shapeCast_self]
  exact broadcastTo_1b_ab_apply P4 broadcasts_S1x3072_S256x3072 p q

/-- Entry (p, q) of the gate tile. -/
theorem tile_apply (P0 P1 : FVec Ideal S256x1024 .f32) (P2 P3 : FVec Ideal S1024x3072 .bf16)
    (P4 : FVec Ideal S1x3072 .f32) (p : Fin 256) (q : Fin 3072) :
    k0_pay1 P0 P1 P2 P3 P4 (ix2 p q)
      = ((∑ k : Fin 1024, P0 (ix2 p k) * P2 (ix2 k q)) + ∑ k : Fin 1024, P1 (ix2 p k) * P3 (ix2 k q))
          + P4 (ix2 (0 : Fin 1) q) :=
  congrArg₂ (· + ·) (congrArg₂ (· + ·) (half_product P0 P2 p q) (half_product P1 P3 p q)) (bias_apply P4 p q)

end Cert.KernelIdeal.Gates

end
-- ==== Proof.Blocks.lean ====
/-
  From the blocks the grid points write to the two whole result arrays.

  The grid has 64 points; point `t` works on rows 256·t … 256·t + 255 of `x`, `h` and `c`, always sees the whole
  (format-narrowed) weight matrix and the bias row, and writes rows 256·t … 256·t + 255 of the two results.
    • `tile_loads`: the body's gate tile, over what it loads from its staged blocks — the weight block's rows
      0 … 1023 and 1024 … 2047 are the two halves — is `gate` of a row of the `x` block, a row of the `h` block and a
      column of the weight block.
    • `block_h`, `block_c`: so what the body leaves in an output block is the cell step of `Cell.lean` of those gates,
      the three gates of hidden unit `j` being columns j, j + 1024, j + 2048 of the tile.
    • `point_h`, `point_c`: if the staged blocks are rows 256·T … of whole arrays, that is `newH` / `newC` of the whole
      arrays at row 256·T + p.
    • `flushed5_eq`, `flushed6_eq`: hence point `t` writes back block `t` of `newH` / `newC`; the 64 blocks tile
      the 16384 rows (`cover5`, `cover6`: row r lies in block r / 256), so the arrays end equal to `newH` / `newC` of
      the argument arrays (`final5`, `final6`), the weights read through the identity change of format and the bias
      through its reshape to one row.
-/
import proofs.«117251_j24309514895774_2_alg».proof.Proof.Gen.KernelIdeal.Value
import proofs.«117251_j24309514895774_2_alg».proof.Proof.Cell
import proofs.«117251_j24309514895774_2_alg».proof.Proof.Gates
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.CellValue

open Cert.KernelIdeal Cert.KernelIdeal.Gen Cert.KernelIdeal.Value Cert.KernelIdeal.Gates Cert.Lstm
open Idealize.ShloMosaic Idealize.ShloMosaic.TcCoe Idealize.ShloMosaic.ValueIdx Idealize.SL.Sem
open Idealize.ShloMosaic.Pipeline (Dat)

/-! ## One grid point, over variables -/

/-- Row p of block T is row 256·T + p of the array. -/
abbrev rowOf (T : Nat) (hT : T < 64) (p : Fin 256) : Fin 16384 := ⟨T * 256 + p.val, by omega⟩

section Point

variable (x0 x1 x2 : Vec Ideal S256x1024 .f32) (x3 : Vec Ideal S2048x3072 .bf16) (x4 : Vec Ideal S1x3072 .f32)

/-- Gate pre-activation (p, q) of the point's tile, from the staged blocks. -/
def gateAt (p : Fin 256) (q : Fin 3072) : EReal :=
  gate (fun k => x0 (ix2 p k)) (fun k => x1 (ix2 p k)) (fun k => x3 (ix2 k q)) (x4 (ix2 (0 : Fin 1) q))

/-- The body's gate tile over its loads is `gateAt` of the staged blocks. -/
theorem tile_loads (p : Fin 256) (q : Fin 3072) :
    k0_pay1 (View.ld x0 r0_0) (View.ld x1 r0_0) (View.ld x3 r0_1) (View.ld x3 r0_2) (View.ld x4 r0_3) (ix2 p q)
      = gateAt x0 x1 x3 x4 p q := by
  refine (tile_apply _ _ _ _ _ p q).trans ?_
  have a0 : ∀ k : Fin 1024, View.ld x0 r0_0 (ix2 p k) = x0 (ix2 p k) := fun k =>
    congrArg x0 (funext fun a => Fin.ext (by
      match a with
      | ⟨0, _⟩ => show 0 + 1 * p.val = p.val; omega
      | ⟨1, _⟩ => show 0 + 1 * k.val = k.val; omega))
  have a1 : ∀ k : Fin 1024, View.ld x1 r0_0 (ix2 p k) = x1 (ix2 p k) := fun k =>
    congrArg x1 (funext fun a => Fin.ext (by
      match a with
      | ⟨0, _⟩ => show 0 + 1 * p.val = p.val; omega
      | ⟨1, _⟩ => show 0 + 1 * k.val = k.val; omega))
  have wt : ∀ k : Fin 1024, View.ld x3 r0_1 (ix2 k q) = x3 (ix2 (⟨k.val, by omega⟩ : Fin 2048) q) := fun k =>
    congrArg x3 (funext fun a => Fin.ext (by
      match a with
      | ⟨0, _⟩ => show 0 + 1 * k.val = k.val; omega
      | ⟨1, _⟩ => show 0 + 1 * q.val = q.val; omega))
  have wb : ∀ k : Fin 1024, View.ld x3 r0_2 (ix2 k q) = x3 (ix2 (⟨1024 + k.val, by omega⟩ : Fin 2048) q) := fun k =>
    congrArg x3 (funext fun a => Fin.ext (by
      match a with
      | ⟨0, _⟩ => show 1024 + 1 * k.val = 1024 + k.val; omega
      | ⟨1, _⟩ => show 0 + 1 * q.val = q.val; omega))
  have bb : View.ld x4 r0_3 (ix2 (0 : Fin 1) q) = x4 (ix2 (0 : Fin 1) q) :=
    congrArg x4 (funext fun a => Fin.ext (by
      match a with
      | ⟨0, _⟩ => show 0 + 1 * 0 = 0; omega
      | ⟨1, _⟩ => show 0 + 1 * q.val = q.val; omega))
  simp only [a0, a1, wt, wb, bb]
  rfl

/-- The old cell state's block is loaded whole. -/
theorem old_state (p : Fin 256) (j : Fin 1024) : View.ld x2 r0_0 (ix2 p j) = x2 (ix2 p j) :=
  congrArg x2 (funext fun a => Fin.ext (by
    match a with
    | ⟨0, _⟩ => show 0 + 1 * p.val = p.val; omega
    | ⟨1, _⟩ => show 0 + 1 * j.val = j.val; omega))

/-- What the body leaves in the new-cell-state block at (p, j). -/
theorem block_c (p : Fin 256) (j : Fin 1024) :
    out0_6 x0 x1 x2 x3 x4 (ix2 p j)
      = cellC (gateAt x0 x1 x3 x4 p ⟨j.val, by omega⟩) (gateAt x0 x1 x3 x4 p ⟨j.val + 1024, by omega⟩) (x2 (ix2 p j)) := by
  unfold out0_6
  refine (canon6_eq _ _ _ _ _ _ (ix2 p j)).trans ?_
  have i0 : ix6_0 (ix2 p j) = ix2 p (⟨j.val, by omega⟩ : Fin 3072) :=
    funext fun a => by match a with | ⟨0, _⟩ => rfl | ⟨1, _⟩ => rfl
  have i1 : ix6_1 (ix2 p j) = ix2 p j := funext fun a => by match a with | ⟨0, _⟩ => rfl | ⟨1, _⟩ => rfl
  have i2 : ix6_2 (ix2 p j) = ix2 p (⟨j.val, by omega⟩ : Fin 3072) :=
    funext fun a => by match a with | ⟨0, _⟩ => rfl | ⟨1, _⟩ => rfl
  have i3 : ix6_3 (ix2 p j) = ix2 p (⟨j.val + 1024, by omega⟩ : Fin 3072) :=
    funext fun a => by match a with | ⟨0, _⟩ => rfl | ⟨1, _⟩ => rfl
  simp only [E6]
  rw [i0, i1, i2, i3, tile_loads, tile_loads, old_state]
  rfl

/-- What the body leaves in the new-hidden-state block at (p, j). -/
theorem block_h (p : Fin 256) (j : Fin 1024) :
    out0_5 x0 x1 x2 x3 x4 (ix2 p j)
      = cellH (gateAt x0 x1 x3 x4 p ⟨j.val, by omega⟩) (gateAt x0 x1 x3 x4 p ⟨j.val + 1024, by omega⟩)
          (gateAt x0 x1 x3 x4 p ⟨j.val + 2048, by omega⟩) (x2 (ix2 p j)) := by
  unfold out0_5
  refine (canon5_eq _ _ _ _ _ _ (ix2 p j)).trans ?_
  have i0 : ix5_0 (ix2 p j) = ix2 p (⟨j.val, by omega⟩ : Fin 3072) :=
    funext fun a => by match a with | ⟨0, _⟩ => rfl | ⟨1, _⟩ => rfl
  have i1 : ix5_1 (ix2 p j) = ix2 p j := funext fun a => by match a with | ⟨0, _⟩ => rfl | ⟨1, _⟩ => rfl
  have i2 : ix5_2 (ix2 p j) = ix2 p (⟨j.val, by omega⟩ : Fin 3072) :=
    funext fun a => by match a with | ⟨0, _⟩ => rfl | ⟨1, _⟩ => rfl
  have i3 : ix5_3 (ix2 p j) = ix2 p (⟨j.val + 1024, by omega⟩ : Fin 3072) :=
    funext fun a => by match a with | ⟨0, _⟩ => rfl | ⟨1, _⟩ => rfl
  have i4 : ix5_4 (ix2 p j) = ix2 p (⟨j.val + 2048, by omega⟩ : Fin 3072) :=
    funext fun a => by match a with | ⟨0, _⟩ => rfl | ⟨1, _⟩ => rfl
  simp only [E5]
  rw [i0, i1, i2, i3, i4, tile_loads, tile_loads, tile_loads, old_state]
  rfl

variable (X H C : BH.Idx → EReal) (W : WW.Idx → EReal) (b : B3.Idx → EReal) (T : Nat) (hT : T < 64)

variable (h0 : ∀ (p : Fin 256) (k : Fin 1024), x0 (ix2 p k) = X (ix2 (rowOf T hT p) k))
  (h1 : ∀ (p : Fin 256) (k : Fin 1024), x1 (ix2 p k) = H (ix2 (rowOf T hT p) k))
  (h2 : ∀ (p : Fin 256) (k : Fin 1024), x2 (ix2 p k) = C (ix2 (rowOf T hT p) k))
  (h3 : ∀ (k : Fin 2048) (q : Fin 3072), x3 (ix2 k q) = W (ix2 k q))
  (h4 : ∀ q : Fin 3072, x4 (ix2 (0 : Fin 1) q) = b (ix1 q))

include h0 h1 h3 h4 in
/-- When the staged blocks are rows 256·T … of whole arrays, the tile's gates are the arrays' pre-activations. -/
theorem gateAt_eq (p : Fin 256) (q : Fin 3072) : gateAt x0 x1 x3 x4 p q = preact X H W b (rowOf T hT p) q := by
  unfold gateAt preact
  simp only [h0, h1, h3, h4]

include h0 h1 h2 h3 h4 in
theorem point_c (y : S256x1024.Idx) :
    out0_6 x0 x1 x2 x3 x4 y = newC X H C W b (ix2 (rowOf T hT (y 0)) (y 1)) := by
  obtain ⟨p, j, rfl⟩ : ∃ (p : Fin 256) (j : Fin 1024), y = ix2 p j := ⟨y 0, y 1, eq_ix2 y⟩
  rw [block_c, gateAt_eq x0 x1 x3 x4 X H W b T hT h0 h1 h3 h4, gateAt_eq x0 x1 x3 x4 X H W b T hT h0 h1 h3 h4, h2]
  rfl

include h0 h1 h2 h3 h4 in
theorem point_h (y : S256x1024.Idx) :
    out0_5 x0 x1 x2 x3 x4 y = newH X H C W b (ix2 (rowOf T hT (y 0)) (y 1)) := by
  obtain ⟨p, j, rfl⟩ : ∃ (p : Fin 256) (j : Fin 1024), y = ix2 p j := ⟨y 0, y 1, eq_ix2 y⟩
  rw [block_h, gateAt_eq x0 x1 x3 x4 X H W b T hT h0 h1 h3 h4, gateAt_eq x0 x1 x3 x4 X H W b T hT h0 h1 h3 h4,
    gateAt_eq x0 x1 x3 x4 X H W b T hT h0 h1 h3 h4, h2]
  rfl

end Point

/-! ## The 64 grid points and the whole arrays -/

variable (m : (ℓ : Loc nD τ sig) → Buf (Elt Ideal) ℓ) (ρ : Dev nD → PrngReg)

/-- The weight array the region finds is the argument narrowed to the matrix unit's format: the same numbers. -/
theorem V_weights (c : Dev nD) (i : S2048x3072.Idx) :
    V m c main_call0_v0 i = m ((c : Thread nD τ).loc main_arg3) i := by
  have e : V m c main_call0_v0
      = (truncf .bf16 (m ((c : Thread nD τ).loc main_arg3) : FVec Ideal S2048x3072 .f32) bitsLt_bf16_f32
          : FVec Ideal S2048x3072 .bf16) := by
    dsimp only [V, hostOps0]; after_results; rfl
  rw [e]; rfl

/-- The bias array the region finds is the argument reshaped to one row. -/
theorem V_bias (c : Dev nD) (q : Fin 3072) :
    V m c main_call0_v1 (ix2 (0 : Fin 1) q) = m ((c : Thread nD τ).loc main_arg4) (ix1 q) := by
  have e : (V m c main_call0_v1 : S1x3072.Idx → EReal)
      = shapeCast S1x3072 (m ((c : Thread nD τ).loc main_arg4)) shapeCasts_S3072_S1x3072 := by
    dsimp only [V, hostOps0]; after_results; rfl
  rw [e]
  exact shapeCast_a_1a_apply _ shapeCasts_S3072_S1x3072 (0 : Fin 1) q

/-- The printed index maps, decided over the 64 points: the three batch-tiled inputs and the two outputs sit at block
    row `t` (below 64), block column 0; the weights and the bias always at block (0, 0). -/
theorem idx_facts : ∀ t : Fin cfg0.N,
    win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = win0_5.index t (0 : Fin 2) ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_6.index t (0 : Fin 2) = win0_5.index t (0 : Fin 2) ∧ win0_6.index t (1 : Fin 2) = 0
    ∧ win0_5.index t (1 : Fin 2) = 0 ∧ win0_5.index t (0 : Fin 2) < 64 :=
  (by decide +kernel : ∀ t : Fin grid0.N, _)

/-- Every block row is some point's. -/
theorem idx_onto : ∀ q0 : Fin 64, ∃ t : Fin cfg0.N, win0_5.index t (0 : Fin 2) = q0.val :=
  (by decide +kernel : ∀ q0 : Fin 64, ∃ t : Fin grid0.N, win0_5.index t (0 : Fin 2) = q0.val)

/-- The new hidden state and the new cell state of the arrays the launch starts from. -/
abbrev HH (c : Dev nD) : BH.Idx → EReal :=
  newH (m ((c : Thread nD τ).loc main_arg0)) (m ((c : Thread nD τ).loc main_arg1)) (m ((c : Thread nD τ).loc main_arg2))
    (m ((c : Thread nD τ).loc main_arg3)) (m ((c : Thread nD τ).loc main_arg4))
abbrev CC (c : Dev nD) : BH.Idx → EReal :=
  newC (m ((c : Thread nD τ).loc main_arg0)) (m ((c : Thread nD τ).loc main_arg1)) (m ((c : Thread nD τ).loc main_arg2))
    (m ((c : Thread nD τ).loc main_arg3)) (m ((c : Thread nD τ).loc main_arg4))

section AtPoint

variable (c : Dev nD) (t : Fin cfg0.N)

/-- The staged `x` block at point `t` is rows 256·t … of `x`. -/
theorem blk_x (p : Fin 256) (k : Fin 1024) :
    iblk m c 0 t (ix2 p k) = m ((c : Thread nD τ).loc main_arg0) (ix2 (rowOf (win0_5.index t (0 : Fin 2)) (idx_facts t).2.2.2.2.2.2.2.2.2.2.2.2.2 p) k) := by
  obtain ⟨e0, e1, -⟩ := idx_facts t
  rw [← V_main_arg0 m c]
  show V m c main_arg0 (((cfg0.win 0).blk t).view.emb (ix2 p k)) = V m c main_arg0 _
  refine congrArg (V m c main_arg0) (funext fun a => Fin.ext ?_)
  match a with
  | ⟨0, _⟩ => show win0_0.index t (0 : Fin 2) * 256 + 1 * p.val = win0_5.index t (0 : Fin 2) * 256 + p.val; omega
  | ⟨1, _⟩ => show win0_0.index t (1 : Fin 2) * 1024 + 1 * k.val = k.val; omega

theorem blk_h (p : Fin 256) (k : Fin 1024) :
    iblk m c 1 t (ix2 p k) = m ((c : Thread nD τ).loc main_arg1) (ix2 (rowOf (win0_5.index t (0 : Fin 2)) (idx_facts t).2.2.2.2.2.2.2.2.2.2.2.2.2 p) k) := by
  obtain ⟨-, -, e0, e1, -⟩ := idx_facts t
  rw [← V_main_arg1 m c]
  show V m c main_arg1 (((cfg0.win 1).blk t).view.emb (ix2 p k)) = V m c main_arg1 _
  refine congrArg (V m c main_arg1) (funext fun a => Fin.ext ?_)
  match a with
  | ⟨0, _⟩ => show win0_1.index t (0 : Fin 2) * 256 + 1 * p.val = win0_5.index t (0 : Fin 2) * 256 + p.val; omega
  | ⟨1, _⟩ => show win0_1.index t (1 : Fin 2) * 1024 + 1 * k.val = k.val; omega

theorem blk_c (p : Fin 256) (k : Fin 1024) :
    iblk m c 2 t (ix2 p k) = m ((c : Thread nD τ).loc main_arg2) (ix2 (rowOf (win0_5.index t (0 : Fin 2)) (idx_facts t).2.2.2.2.2.2.2.2.2.2.2.2.2 p) k) := by
  obtain ⟨-, -, -, -, e0, e1, -⟩ := idx_facts t
  rw [← V_main_arg2 m c]
  show V m c main_arg2 (((cfg0.win 2).blk t).view.emb (ix2 p k)) = V m c main_arg2 _
  refine congrArg (V m c main_arg2) (funext fun a => Fin.ext ?_)
  match a with
  | ⟨0, _⟩ => show win0_2.index t (0 : Fin 2) * 256 + 1 * p.val = win0_5.index t (0 : Fin 2) * 256 + p.val; omega
  | ⟨1, _⟩ => show win0_2.index t (1 : Fin 2) * 1024 + 1 * k.val = k.val; omega

/-- The staged weight block is the whole weight matrix. -/
theorem blk_w (k : Fin 2048) (q : Fin 3072) :
    iblk m c 3 t (ix2 k q) = m ((c : Thread nD τ).loc main_arg3) (ix2 k q) := by
  obtain ⟨-, -, -, -, -, -, e0, e1, -⟩ := idx_facts t
  rw [← V_weights m c]
  show V m c main_call0_v0 (((cfg0.win 3).blk t).view.emb (ix2 k q)) = V m c main_call0_v0 _
  refine congrArg (V m c main_call0_v0) (funext fun a => Fin.ext ?_)
  match a with
  | ⟨0, _⟩ => show win0_3.index t (0 : Fin 2) * 2048 + 1 * k.val = k.val; omega
  | ⟨1, _⟩ => show win0_3.index t (1 : Fin 2) * 3072 + 1 * q.val = q.val; omega

/-- The staged bias block is the bias row. -/
theorem blk_b (q : Fin 3072) :
    iblk m c 4 t (ix2 (0 : Fin 1) q) = m ((c : Thread nD τ).loc main_arg4) (ix1 q) := by
  obtain ⟨-, -, -, -, -, -, -, -, e0, e1, -⟩ := idx_facts t
  rw [← V_bias m c]
  show V m c main_call0_v1 (((cfg0.win 4).blk t).view.emb (ix2 (0 : Fin 1) q)) = V m c main_call0_v1 _
  refine congrArg (V m c main_call0_v1) (funext fun a => Fin.ext ?_)
  match a with
  | ⟨0, _⟩ => show win0_4.index t (0 : Fin 2) * 1 + 1 * 0 = 0; omega
  | ⟨1, _⟩ => show win0_4.index t (1 : Fin 2) * 3072 + 1 * q.val = q.val; omega

/-- Point `t` writes back block `t` of the new hidden state. -/
theorem flushed5_eq : (dats m 0 c).flushed 5 t = ((cfg0.win 5).blk t).view.read (Elt Ideal) (HH m c) := by
  rw [Value.flushed5]
  obtain ⟨-, -, -, -, -, -, -, -, -, -, -, -, e1, -⟩ := idx_facts t
  funext y
  show out0_5 (iblk m c 0 t) (iblk m c 1 t) (iblk m c 2 t) (iblk m c 3 t) (iblk m c 4 t) y
    = HH m c (((cfg0.win 5).blk t).view.emb y)
  refine (point_h _ _ _ _ _ _ _ _ _ _ _ _ (blk_x m c t) (blk_h m c t) (blk_c m c t) (blk_w m c t) (blk_b m c t) y).trans ?_
  refine congrArg (HH m c) (funext fun a => Fin.ext ?_)
  match a with
  | ⟨0, _⟩ => show win0_5.index t (0 : Fin 2) * 256 + (y 0).val = win0_5.index t (0 : Fin 2) * 256 + 1 * (y 0).val; omega
  | ⟨1, _⟩ => show (y 1).val = win0_5.index t (1 : Fin 2) * 1024 + 1 * (y 1).val; omega

/-- Point `t` writes back block `t` of the new cell state. -/
theorem flushed6_eq : (dats m 0 c).flushed 6 t = ((cfg0.win 6).blk t).view.read (Elt Ideal) (CC m c) := by
  rw [Value.flushed6]
  obtain ⟨-, -, -, -, -, -, -, -, -, -, e0, e1, -⟩ := idx_facts t
  funext y
  show out0_6 (iblk m c 0 t) (iblk m c 1 t) (iblk m c 2 t) (iblk m c 3 t) (iblk m c 4 t) y
    = CC m c (((cfg0.win 6).blk t).view.emb y)
  refine (point_c _ _ _ _ _ _ _ _ _ _ _ _ (blk_x m c t) (blk_h m c t) (blk_c m c t) (blk_w m c t) (blk_b m c t) y).trans ?_
  refine congrArg (CC m c) (funext fun a => Fin.ext ?_)
  match a with
  | ⟨0, _⟩ => show win0_5.index t (0 : Fin 2) * 256 + (y 0).val = win0_6.index t (0 : Fin 2) * 256 + 1 * (y 0).val; omega
  | ⟨1, _⟩ => show (y 1).val = win0_6.index t (1 : Fin 2) * 1024 + 1 * (y 1).val; omega

end AtPoint

/-- An index of a result array lies in point `t`'s block iff each coordinate is in the block's range on its axis. -/
theorem mem_blk5 (t : Fin cfg0.N) (i : S16384x1024.Idx) :
    i ∈ ((cfg0.win 5).blk t).view.set ↔ ∀ a : Fin 2, win0_5.index t a * S256x1024.size a ≤ (i a).val
      ∧ (i a).val < win0_5.index t a * S256x1024.size a + S256x1024.size a := by
  show i ∈ ((View.whole main_v0_0).slice (win0_5.rect t)).set ↔ _
  rw [View.set_slice_whole, Rect.mem_set_unit]
  exact Iff.rfl

theorem mem_blk6 (t : Fin cfg0.N) (i : S16384x1024.Idx) :
    i ∈ ((cfg0.win 6).blk t).view.set ↔ ∀ a : Fin 2, win0_6.index t a * S256x1024.size a ≤ (i a).val
      ∧ (i a).val < win0_6.index t a * S256x1024.size a + S256x1024.size a := by
  show i ∈ ((View.whole main_v0_1).slice (win0_6.rect t)).set ↔ _
  rw [View.set_slice_whole, Rect.mem_set_unit]
  exact Iff.rfl

/-- Row r of a result lies in the block of the point whose block row is r / 256: the 64 blocks tile the array. -/
theorem cover5 (i : S16384x1024.Idx) :
    ∃ t : Fin cfg0.N, (cfg0.win 5).flush t = true ∧ i ∈ ((cfg0.win 5).blk t).view.set := by
  have hi0 : (i 0).val < 16384 := (i 0).isLt
  have hi1 : (i 1).val < 1024 := (i 1).isLt
  obtain ⟨t, ht⟩ := idx_onto ⟨(i 0).val / 256, by omega⟩
  have q0 : win0_5.index t (0 : Fin 2) = (i 0).val / 256 := ht
  obtain ⟨-, -, -, -, -, -, -, -, -, -, -, -, q1, -⟩ := idx_facts t
  refine ⟨t, flush0_5 t, ?_⟩
  rw [mem_blk5]
  intro a
  match a with
  | ⟨0, _⟩ => show win0_5.index t (0 : Fin 2) * 256 ≤ (i 0).val ∧ (i 0).val < win0_5.index t (0 : Fin 2) * 256 + 256; omega
  | ⟨1, _⟩ => show win0_5.index t (1 : Fin 2) * 1024 ≤ (i 1).val ∧ (i 1).val < win0_5.index t (1 : Fin 2) * 1024 + 1024; omega

theorem cover6 (i : S16384x1024.Idx) :
    ∃ t : Fin cfg0.N, (cfg0.win 6).flush t = true ∧ i ∈ ((cfg0.win 6).blk t).view.set := by
  have hi0 : (i 0).val < 16384 := (i 0).isLt
  have hi1 : (i 1).val < 1024 := (i 1).isLt
  obtain ⟨t, ht⟩ := idx_onto ⟨(i 0).val / 256, by omega⟩
  have q0 : win0_5.index t (0 : Fin 2) = (i 0).val / 256 := ht
  obtain ⟨-, -, -, -, -, -, -, -, -, -, e0, e1, -⟩ := idx_facts t
  refine ⟨t, flush0_6 t, ?_⟩
  rw [mem_blk6]
  intro a
  match a with
  | ⟨0, _⟩ => show win0_6.index t (0 : Fin 2) * 256 ≤ (i 0).val ∧ (i 0).val < win0_6.index t (0 : Fin 2) * 256 + 256; omega
  | ⟨1, _⟩ => show win0_6.index t (1 : Fin 2) * 1024 ≤ (i 1).val ∧ (i 1).val < win0_6.index t (1 : Fin 2) * 1024 + 1024; omega

/-- After the run the first result array is the new hidden state of the argument arrays. -/
theorem final5 (c : Dev nD) : (dats m 0 c).arrAt 5 cfg0.N = HH m c :=
  (dats m 0 c).arrAt_eq_of_cover 5 (HH m c) (fun t _ => flushed5_eq m c t) cover5

/-- After the run the second result array is the new cell state of the argument arrays. -/
theorem final6 (c : Dev nD) : (dats m 0 c).arrAt 6 cfg0.N = CC m c :=
  (dats m 0 c).arrAt_eq_of_cover 6 (CC m c) (fun t _ => flushed6_eq m c t) cover6

/-- The kernel's run: every weakly fair execution terminates with the two results at the cell step of the argument
    arrays, the arguments unchanged. -/
theorem run : θ_run defs (onTc (τ := τ) (main (F := Ideal))) ⟨m, fun _ => 0, ρ⟩ fun r => ∀ c : Dev nD,
      r.2.mem ((c : Thread nD τ).loc main_v0_0) = HH m c
      ∧ r.2.mem ((c : Thread nD τ).loc main_v0_1) = CC m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final5 m c), (h c).2.1.trans (final6 m c), (h c).2.2⟩)
    (Value.run_blocks m ρ)

end Cert.KernelIdeal.CellValue

end
-- ==== Proof.lean ====
/- One LSTM cell step, batch 16384, input and hidden width 1024: from `x`, `h`, `c`, the 2048 × 3072 weights `W` and the bias
   `b`, the gate pre-activations are the three 1024-wide column groups of  [x, h] · W + b , and
        c' = (1 − σ(g_i)) · c + σ(g_i) · tanh(g_j),      h' = tanh(c') · σ(g_o).
   The kernel works on 64 blocks of 256 rows; in each it multiplies the `x` block by the top 1024 rows of `W` and the
   `h` block by the bottom 1024 rows (operands narrowed to the matrix unit's format, products accumulated from zero),
   adds the two products and the bias row, and applies the gates with the logistic function as one operation. The
   reference joins `x` and `h` along the columns, multiplies the joined 16384 × 2048 matrix by `W` once, adds the bias and
   spells the logistic function 1 / (1 + exp(−·)).
   On the extended reals the two agree entry by entry: a change of float format is the identity; a sum over the 2048
   joined entries is the sum over the first 1024 plus the sum over the last 1024 (Proof/Cell.lean `sum_two_halves` —
   addition is commutative and associative on the extended reals, so the finiteness of the inputs is never used); and
   1 / (1 + exp(−x)) is the logistic function of x (Proof/Cell.lean `host_sigmoid`).
   Proof/Cell.lean states the cell step as functions `newH`, `newC` of the five arrays; Proof/RefCell.lean shows the
   reference's two results are these; Proof/Gates.lean reads the kernel's gate tile at an index and Proof/Blocks.lean
   carries the 64 blocks to the whole result arrays. The program never rewrites an operation when idealized, so there is
   nothing to preserve beyond the text itself. -/
import proofs.«117251_j24309514895774_2_alg».proof.Defs
import proofs.«117251_j24309514895774_2_alg».proof.Proof.Gen.Kernel
import proofs.«117251_j24309514895774_2_alg».proof.Proof.Gen.Kernel.Skeleton
import proofs.«117251_j24309514895774_2_alg».proof.Proof.Gen.Kernel.Launch
import proofs.«117251_j24309514895774_2_alg».proof.Proof.Gen.Kernel.Points
import proofs.«117251_j24309514895774_2_alg».proof.Proof.Gen.Kernel.Frame
import proofs.«117251_j24309514895774_2_alg».proof.Proof.Gen.KernelIdeal
import proofs.«117251_j24309514895774_2_alg».proof.Proof.Gen.KernelIdeal.Skeleton
import proofs.«117251_j24309514895774_2_alg».proof.Proof.Gen.KernelIdeal.Launch
import proofs.«117251_j24309514895774_2_alg».proof.Proof.Gen.KernelIdeal.Points
import proofs.«117251_j24309514895774_2_alg».proof.Proof.Gen.KernelIdeal.Frame
import proofs.«117251_j24309514895774_2_alg».proof.Proof.Gen.ReferenceIdeal
import proofs.«117251_j24309514895774_2_alg».proof.Proof.Gen.Pre_finite_inputs
import proofs.«117251_j24309514895774_2_alg».proof.Proof.Gen.KernelIdeal.Value
import proofs.«117251_j24309514895774_2_alg».proof.Proof.Gen.ReferenceIdeal.Run
import proofs.«117251_j24309514895774_2_alg».proof.Proof.Gen.ReferenceIdeal.Read
import Idealize.ShloMosaic.Adequacy
import Idealize.ShloMosaic.Init

import proofs.«117251_j24309514895774_2_alg».proof.Proof.Cell
import proofs.«117251_j24309514895774_2_alg».proof.Proof.RefCell
import proofs.«117251_j24309514895774_2_alg».proof.Proof.Gates
import proofs.«117251_j24309514895774_2_alg».proof.Proof.Blocks

noncomputable section

namespace Cert.Proof

open Idealize.ShloMosaic Idealize.SL.Sem

/-- The kernel as printed runs, faults nowhere and leaves its arguments as they were. -/
theorem frame_k : Cert.frame_Kernel := fun m ρ _ => Cert.Kernel.Gen.frame m ρ

/-- So does the kernel read on the extended reals. -/
theorem frame_ki : Cert.frame_KernelIdeal := fun m ρ _ => Cert.KernelIdeal.Gen.frame m ρ

/-- So does the reference: its run with the two results forgotten. -/
theorem frame_ri : Cert.frame_ReferenceIdeal := fun m ρ _ =>
  (θ_run Cert.ReferenceIdeal.defs _ _).mono (fun _ h c => (h c).2.2) (Cert.ReferenceIdeal.Value.run (F := Ideal) m ρ)

/-- From arguments that agree, the kernel ends with `newH`, `newC` of its arrays (Proof/Blocks.lean) and the reference
    with `newH`, `newC` of its own (Proof/RefCell.lean): the same two arrays. -/
theorem algebraic : Cert.algebraic_KernelIdeal_ReferenceIdeal := by
  intro m ρ m' ρ' _ hagree
  refine ⟨_, _, Cert.KernelIdeal.CellValue.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v27_eq, Cert.ReferenceIdeal.RefValue.newH_eq,
      (hagree c).1, (hagree c).2.1, (hagree c).2.2.1, (hagree c).2.2.2.1, (hagree c).2.2.2.2]
  · rw [Cert.ReferenceIdeal.Read.val_main_v19_eq, Cert.ReferenceIdeal.RefValue.newC_eq,
      (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts,
  Cert.Pre_finite_inputs.Gen.facts, frame_k, frame_ki, frame_ri, trivial, algebraic⟩

end Cert.Proof

end
